-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S16384 : Shape := ⟨1, ![16384]⟩
abbrev S4096x512 : Shape := ⟨2, ![4096, 512]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S4096x512 : S_.BroadcastsInDim S4096x512 (![] : Fin 0 → Fin S4096x512.rank)
  reducesTo_S4096x512_S_d0_1 : S4096x512.ReducesTo [0, 1] S_

variable [Facts]

def fn {F : FTy → Type} [FloatOps F] (main_arg0 : FVec F S16384x512 .f32) (main_arg1 : IVec S16384 32) (main_arg2 : FVec F S4096x512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S4096x512 .f32 := Host.absf main_arg2
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  main_v8
-- ==== Kernel.lean ====
abbrev S16384x512 : Shape := ⟨2, ![16384, 512]⟩
abbrev S16384 : Shape := ⟨1, ![16384]⟩
abbrev S4096x512 : Shape := ⟨2, ![4096, 512]⟩
abbrev S16384x1 : Shape := ⟨2, ![16384, 1]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S1x1 : Shape := ⟨2, ![1, 1]⟩
abbrev S256x512 : Shape := ⟨2, ![256, 512]⟩
abbrev S256x1 : Shape := ⟨2, ![256, 1]⟩
abbrev S256x4096 : Shape := ⟨2, ![256, 4096]⟩
abbrev S256 : Shape := ⟨1, ![256]⟩
abbrev S1 : Shape := ⟨1, ![1]⟩

abbrev nBuf : Space → Nat
  | .hbm => 37
  | .vmem => 10
  | .smem => 0
  | _ => 0

abbrev bufTy : (tb : Table) → Fin (tcTables nBuf tb) → BufTy
  | .hbm, ⟨0, _⟩ => ⟨S16384x512, .f32⟩
  | .hbm, ⟨1, _⟩ => ⟨S16384, .i32⟩
  | .hbm, ⟨2, _⟩ => ⟨S4096x512, .f32⟩
  | .hbm, ⟨3, _⟩ => ⟨S16384x1, .i32⟩
  | .hbm, ⟨4, _⟩ => ⟨S16384x512, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S4096x512, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S1x4096, .f32⟩
  | .hbm, ⟨13, _⟩ => ⟨S16384x512, .bf16⟩
  | .hbm, ⟨14, _⟩ => ⟨S4096x512, .bf16⟩
  | .hbm, ⟨15, _⟩ => ⟨S1x1, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .i32⟩
  | .hbm, ⟨20, _⟩ => ⟨S16384, .i32⟩
  | .hbm, ⟨21, _⟩ => ⟨S16384, .i1⟩
  | .hbm, ⟨22, _⟩ => ⟨S_, .i32⟩
  | .hbm, ⟨23, _⟩ => ⟨S16384, .i32⟩
  | .hbm, ⟨24, _⟩ => ⟨S16384, .i32⟩
  | .hbm, ⟨25, _⟩ => ⟨S16384, .i32⟩
  | .hbm, ⟨26, _⟩ => ⟨S16384x1, .i32⟩
  | .hbm, ⟨27, _⟩ => ⟨S16384x512, .f32⟩
  | .hbm, ⟨28, _⟩ => ⟨S16384x512, .f32⟩
  | .hbm, ⟨29, _⟩ => ⟨S16384x512, .f32⟩
  | .hbm, ⟨30, _⟩ => ⟨S_, .f32⟩
  | .hbm, ⟨31, _⟩ => ⟨S16384, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .local _ .vmem, ⟨0, _⟩ => ⟨S256x512, .bf16⟩
  | .local _ .vmem, ⟨1, _⟩ => ⟨S256x512, .bf16⟩
  | .local _ .vmem, ⟨2, _⟩ => ⟨S256x1, .i32⟩
  | .local _ .vmem, ⟨3, _⟩ => ⟨S256x1, .i32⟩
  | .local _ .vmem, ⟨4, _⟩ => ⟨S256x1, .f32⟩
  | .local _ .vmem, ⟨5, _⟩ => ⟨S256x1, .f32⟩
  | .local _ .vmem, ⟨6, _⟩ => ⟨S4096x512, .bf16⟩
  | .local _ .vmem, ⟨7, _⟩ => ⟨S1x4096, .f32⟩
  | .local _ .vmem, ⟨8, _⟩ => ⟨S1x1, .f32⟩
  | .local _ .vmem, ⟨9, _⟩ => ⟨S1x1, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_c : Ref sig .tc := ⟨.hbm, 19, rfl⟩
abbrev main_v13 : Ref sig .tc := ⟨.hbm, 20, rfl⟩
abbrev main_v14 : Ref sig .tc := ⟨.hbm, 21, rfl⟩
abbrev main_c_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v34 : BitVec 1 := Scalar.cmpi .eq arg0 c63_i32
  let v35 : BitVec 32 := Scalar.extui v34
  let c0_i32_18 : BitVec 32 := 0#32
  let v36 : BitVec 1 := Scalar.cmpi .ne v35 c0_i32_18
  v36

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4096x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

class Facts₀ : Prop where
  shapeCasts_S16384_S16384x1 : S16384.ShapeCasts S16384x1
  reducesTo_S16384x512_S16384_d1 : S16384x512.ReducesTo [1] S16384
  h_S_ : 0 < S_.numel
  bcast_S16384_S16384x1_0 : S16384.BroadcastsInDim S16384x1 (![0] : Fin 1 → Fin S16384x1.rank)
  reducesTo_S4096x512_S4096_d1 : S4096x512.ReducesTo [1] S4096
  bcast_S4096_S4096x1_0 : S4096.BroadcastsInDim S4096x1 (![0] : Fin 1 → Fin S4096x1.rank)
  shapeCasts_S4096x1_S1x4096 : S4096x1.ShapeCasts S1x4096
  bitsLt_bf16_f32 : FTy.bits .bf16 < FTy.bits .f32
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S256x1_S256x4096 : S256x1.Broadcasts S256x4096
  broadcasts_S1x4096_S256x4096 : S1x4096.Broadcasts S256x4096
  iota_S256x4096_d1_w32 : S256x4096.Iotas .tc 32 [1]
  reduces_S256x4096_S256 : S256x4096.Reduces [1] S256
  shapeCasts_S256_S256x1 : S256.ShapeCasts S256x1
  reduces_S256x1_S1 : S256x1.Reduces [0] S1
  shapeCasts_S1_S1x1 : S1.ShapeCasts S1x1
  shapeCasts_S1x1_S_ : S1x1.ShapeCasts S_
  bcast_S_S16384 : S_.BroadcastsInDim S16384 (![] : Fin 0 → Fin S16384.rank)
  reducesTo_S16384_S_d0 : S16384.ReducesTo [0] S_
  dot_S256x512_S4096x512_S256x4096_1_1_0_0_n_n_wf : DotDims.WF S256x512 S4096x512 S256x4096 [1] [1] [0] [0] [] []
  gather_S4096x512_S16384x1_S16384x512_1_0_n_n_0_1_1512_wf : GatherDims.WF S4096x512 S16384x1 S16384x512 [1] [0] [] [0] [] 1 ![1, 512]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S16384x512.size a
  hwx0_0 : ∀ i : grid0.Coords, EltTy.bits .bf16 = 32 ∨ (Rect.block (s := S16384x512) S256x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S16384x1.size a
  hwx0_1 : ∀ i : grid0.Coords, EltTy.bits .i32 = 32 ∨ (Rect.block (s := S16384x1) S256x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S16384x1.size a
  hwx0_2 : ∀ i : grid0.Coords, EltTy.bits .f32 = 32 ∨ (Rect.block (s := S16384x1) S256x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x512.size a ≤ S4096x512.size a
  hwx0_3 : ∀ i : grid0.Coords, EltTy.bits .bf16 = 32 ∨ (Rect.block (s := S4096x512) S4096x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)

variable [Facts₀]

def dot_S256x512_S4096x512_S256x4096_1_1_0_0_n_n : DotDims S256x512 S4096x512 S256x4096 where
  lhsContracting := [1]
  rhsContracting := [1]
  lhsNonContracting := [0]
  rhsNonContracting := [0]
  lhsBatch := []
  rhsBatch := []
  wf := dot_S256x512_S4096x512_S256x4096_1_1_0_0_n_n_wf
def gather_S4096x512_S16384x1_S16384x512_1_0_n_n_0_1_1512 : GatherDims S4096x512 S16384x1 S16384x512 where
  offsetDims := [1]
  collapsedSliceDims := [0]
  operandBatchingDims := []
  startIndicesBatchingDims := []
  startIndexMap := [0]
  indexVectorDim := 1
  sliceSizes := ![1, 512]
  wf := gather_S4096x512_S16384x1_S16384x512_1_0_n_n_0_1_1512_wf

abbrev win0_0 : Pipeline.Window sig grid0 :=
  Pipeline.Window.ofSpec (Memref.whole main_v8) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S4096x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S1x1.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S16384x512 : Shape := ⟨2, ![16384, 512]⟩
abbrev S16384 : Shape := ⟨1, ![16384]⟩
abbrev S4096x512 : Shape := ⟨2, ![4096, 512]⟩
abbrev S_ : Shape := ⟨0, ![]⟩
abbrev S16384x1 : Shape := ⟨2, ![16384, 1]⟩
abbrev S4096 : Shape := ⟨1, ![4096]⟩
abbrev S1x4096 : Shape := ⟨2, ![1, 4096]⟩
abbrev S512x4096 : Shape := ⟨2, ![512, 4096]⟩
abbrev S16384x4096 : Shape := ⟨2, ![16384, 4096]⟩

abbrev nBuf : Space → Nat
  | .hbm => 54
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384, .i32⟩
  | .hbm, ⟨2, _⟩ => ⟨S4096x512, .f32⟩
  | .hbm, ⟨3, _⟩ => ⟨S_, .i32⟩
  | .hbm, ⟨4, _⟩ => ⟨S16384, .i32⟩
  | .hbm, ⟨5, _⟩ => ⟨S16384, .i1⟩
  | .hbm, ⟨6, _⟩ => ⟨S_, .i32⟩
  | .hbm, ⟨7, _⟩ => ⟨S16384, .i32⟩
  | .hbm, ⟨8, _⟩ => ⟨S16384, .i32⟩
  | .hbm, ⟨9, _⟩ => ⟨S16384, .i32⟩
  | .hbm, ⟨10, _⟩ => ⟨S16384x1, .i32⟩
  | .hbm, ⟨11, _⟩ => ⟨S16384x512, .f32⟩
  | .hbm, ⟨12, _⟩ => ⟨S16384x512, .f32⟩
  | .hbm, ⟨13, _⟩ => ⟨S16384x512, .f32⟩
  | .hbm, ⟨14, _⟩ => ⟨S_, .f32⟩
  | .hbm, ⟨15, _⟩ => ⟨S16384, .f32⟩
  | .hbm, ⟨16, _⟩ => ⟨S16384x512, .f32⟩
  | .hbm, ⟨17, _⟩ => ⟨S_, .f32⟩
  | .hbm, ⟨18, _⟩ => ⟨S16384, .f32⟩
  | .hbm, ⟨19, _⟩ => ⟨S16384x1, .f32⟩
  | .hbm, ⟨20, _⟩ => ⟨S4096x512, .f32⟩
  | .hbm, ⟨21, _⟩ => ⟨S_, .f32⟩
  | .hbm, ⟨22, _⟩ => ⟨S4096, .f32⟩
  | .hbm, ⟨23, _⟩ => ⟨S1x4096, .f32⟩
  | .hbm, ⟨24, _⟩ => ⟨S512x4096, .f32⟩
  | .hbm, ⟨25, _⟩ => ⟨S16384x4096, .f32⟩
  | .hbm, ⟨26, _⟩ => ⟨S16384x4096, .f32⟩
  | .hbm, ⟨27, _⟩ => ⟨S16384x4096, .f32⟩
  | .hbm, ⟨28, _⟩ => ⟨S16384x4096, .f32⟩
  | .hbm, ⟨29, _⟩ => ⟨S_, .f32⟩
  | .hbm, ⟨30, _⟩ => ⟨S16384x4096, .f32⟩
  | .hbm, ⟨31, _⟩ => ⟨S16384x4096, .f32⟩
  | .hbm, ⟨32, _⟩ => ⟨S16384x4096, .f32⟩
  | .hbm, ⟨33, _⟩ => ⟨S16384x1, .i32⟩
  | .hbm, ⟨34, _⟩ => ⟨S1x4096, .i32⟩
  | .hbm, ⟨35, _⟩ => ⟨S16384x4096, .i32⟩
  | .hbm, ⟨36, _⟩ => ⟨S16384x4096, .i32⟩
  | .hbm, ⟨37, _⟩ => ⟨S16384x4096, .i1⟩
  | .hbm, ⟨38, _⟩ => ⟨S16384x4096, .f32⟩
  | .hbm, ⟨39, _⟩ => ⟨S_, .f32⟩
  | .hbm, ⟨40, _⟩ => ⟨S16384x4096, .f32⟩
  | .hbm, ⟨41, _⟩ => ⟨S16384x4096, .f32⟩
  | .hbm, ⟨42, _⟩ => ⟨S16384x4096, .f32⟩
  | .hbm, ⟨43, _⟩ => ⟨S_, .f32⟩
  | .hbm, ⟨44, _⟩ => ⟨S16384, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_cst_6 : Ref sig .tc := ⟨.hbm, 45, rfl⟩
abbrev main_v29 : Ref sig .tc := ⟨.hbm, 46, rfl⟩
abbrev main_cst_7 : Ref sig .tc := ⟨.hbm, 47, rfl⟩
abbrev main_v30 : Ref sig .tc := ⟨.hbm, 48, rfl⟩
abbrev main_cst_8 : Ref sig .tc := ⟨.hbm, 49, rfl⟩
abbrev main_v31 : Ref sig .tc := ⟨.hbm, 50, rfl⟩
abbrev main_cst_9 : Ref sig .tc := ⟨.hbm, 51, rfl⟩
abbrev main_v32 : Ref sig .tc := ⟨.hbm, 52, rfl⟩
abbrev main_v33 : Ref sig .tc := ⟨.hbm, 53, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  reducesTo_S16384x512_S16384_d1 : S16384x512.ReducesTo [1] S16384
  h_S_ : 0 < S_.numel
  reducesTo_S4096x512_S4096_d1 : S4096x512.ReducesTo [1] S4096
  bcast_S4096_S1x4096_1 : S4096.BroadcastsInDim S1x4096 (![1] : Fin 1 → Fin S1x4096.rank)
  transposes_S4096x512_S512x4096_1_0 : S4096x512.Transposes [1, 0] S512x4096
  bcast_S16384x1_S16384x4096_0_1 : S16384x1.BroadcastsInDim S16384x4096 (![0, 1] : Fin 2 → Fin S16384x4096.rank)
  bcast_S1x4096_S16384x4096_0_1 : S1x4096.BroadcastsInDim S16384x4096 (![0, 1] : Fin 2 → Fin S16384x4096.rank)
  bcast_S_S16384x4096 : S_.BroadcastsInDim S16384x4096 (![] : Fin 0 → Fin S16384x4096.rank)
  reducesTo_S16384x4096_S16384_d1 : S16384x4096.ReducesTo [1] S16384
  reducesTo_S16384_S_d0 : S16384.ReducesTo [0] S_
  gather_S4096x512_S16384x1_S16384x512_1_0_n_n_0_1_1512_wf : GatherDims.WF S4096x512 S16384x1 S16384x512 [1] [0] [] [0] [] 1 ![1, 512]
  dot_S16384x512_S512x4096_S16384x4096_1_0_0_1_n_n_wf : DotDims.WF S16384x512 S512x4096 S16384x4096 [1] [0] [0] [1] [] []

variable [Facts₀]

def gather_S4096x512_S16384x1_S16384x512_1_0_n_n_0_1_1512 : GatherDims S4096x512 S16384x1 S16384x512 where
  offsetDims := [1]
  collapsedSliceDims := [0]
  operandBatchingDims := []
  startIndicesBatchingDims := []
  startIndexMap := [0]
  indexVectorDim := 1
  sliceSizes := ![1, 512]
  wf := gather_S4096x512_S16384x1_S16384x512_1_0_n_n_0_1_1512_wf
def dot_S16384x512_S512x4096_S16384x4096_1_0_0_1_n_n : DotDims S16384x512 S512x4096 S16384x4096 where
  lhsContracting := [1]
  rhsContracting := [0]
  lhsNonContracting := [0]
  rhsNonContracting := [1]
  lhsBatch := []
  rhsBatch := []
  wf := dot_S16384x512_S512x4096_S16384x4096_1_0_0_1_n_n_wf

class Facts : Prop extends Facts₀ where

variable [Facts]
-- ==== Proof.TileCases.lean ====
/-
  What each kind of grid point leaves behind.

  The body keeps a running [1, 1] sum in a scratch buffer that lives across the grid.  At the first point it first
  stores the zero block there and then stores "what it reads back plus the tile's sum"; at every later point it stores
  "what the point before left plus the tile's sum"; at the last point it also copies what it has just stored into the
  output block.  So, as values of the blocks the point was handed: the first point leaves the tile's step applied to
  the zero block, every later point the step applied to what the point before left, and the last point's output block
  holds the same value as its scratch.  These hold at every float instance.
-/
import proofs.«136157_j9285719294140_1_alg».proof.Proof.Gen.KernelIdeal.Frame
import Idealize.ShloMosaic.Lib.Pipeline.Value
import Idealize.ShloMosaic.Lib.Tactic

noncomputable section

namespace Cert.KernelIdeal.Tile

open Cert.KernelIdeal Cert.KernelIdeal.Gen
open Idealize.ShloMosaic Idealize.ShloMosaic.TcCoe Idealize.ShloMosaic.Tactic Idealize.SL.Sem

variable {F : FTy → Type} [FloatOps F]

theorem hz : (![0, 0] : Fin 2 → Nat) = fun _ => 0 := funext fun a => by fin_cases a <;> rfl

/-- A later point that is not the last: the scratch ends at the step applied to what it held. -/
theorem scratch_B (c : Dev nD) (i : grid0.Coords) (a1 : Memref sig .tc .vmem S256x512 .bf16) (h1 : a1.IsWhole) (a2 : Memref sig .tc .vmem S256x1 .i32) (h2 : a2.IsWhole) (a3 : Memref sig .tc .vmem S256x1 .f32) (h3 : a3.IsWhole) (a4 : Memref sig .tc .vmem S4096x512 .bf16) (h4 : a4.IsWhole) (a5 : Memref sig .tc .vmem S1x4096 .f32) (h5 : a5.IsWhole) (a6 : Memref sig .tc .vmem S1x1 .f32) (h6 : a6.IsWhole) (a7 : Memref sig .tc .vmem S1x1 .f32) (h7 : a7.IsWhole) (hc0 : ¬cond0_0 i) (hc1 : ¬cond0_1 i)
    (x0 : Vec F S256x512 .bf16) (x1 : Vec F S256x1 .i32) (x2 : Vec F S256x1 .f32) (x3 : Vec F S4096x512 .bf16) (x4 : Vec F S1x4096 .f32) (xs0 : Vec F S1x1 .f32) :
    sout0_B_0 c i a1 h1 a2 h2 a3 h3 a4 h4 a5 h5 a6 h6 a7 h7 hc0 hc1 x0 x1 x2 x3 x4 xs0 = k0_pay2 x0 x3 x2 x4 x1 xs0 := by
  unfold sout0_B_0
  rw [View.read_writes_eq_canon _ _ _ (scover0_B_0 c i a1 h1 a2 h2 a3 h3 a4 h4 a5 h5 a6 h6 a7 h7 hc0 hc1 x0 x1 x2 x3 x4 xs0)]
  unfold kernelRun0_B
  dsimp only
  rw [View.canon_unit_zero hz]
  simp only [View.readAt_eq_ld, h1.read_unread, h2.read_unread, h3.read_unread, h4.read_unread, h5.read_unread, h7.read_unread,
    View.ld_unit_zero (S := S256x512) hz, View.ld_unit_zero (S := S4096x512) hz, View.ld_unit_zero (S := S256x1) hz,
    View.ld_unit_zero (S := S1x4096) hz, View.ld_unit_zero (S := S1x1) hz]

/-- The last point: the scratch ends at the step applied to what it held, -/
theorem scratch_C (c : Dev nD) (i : grid0.Coords) (a1 : Memref sig .tc .vmem S256x512 .bf16) (h1 : a1.IsWhole) (a2 : Memref sig .tc .vmem S256x1 .i32) (h2 : a2.IsWhole) (a3 : Memref sig .tc .vmem S256x1 .f32) (h3 : a3.IsWhole) (a4 : Memref sig .tc .vmem S4096x512 .bf16) (h4 : a4.IsWhole) (a5 : Memref sig .tc .vmem S1x4096 .f32) (h5 : a5.IsWhole) (a6 : Memref sig .tc .vmem S1x1 .f32) (h6 : a6.IsWhole) (a7 : Memref sig .tc .vmem S1x1 .f32) (h7 : a7.IsWhole) (hc0 : ¬cond0_0 i) (hc1 : cond0_1 i)
    (x0 : Vec F S256x512 .bf16) (x1 : Vec F S256x1 .i32) (x2 : Vec F S256x1 .f32) (x3 : Vec F S4096x512 .bf16) (x4 : Vec F S1x4096 .f32) (xs0 : Vec F S1x1 .f32) :
    sout0_C_0 c i a1 h1 a2 h2 a3 h3 a4 h4 a5 h5 a6 h6 a7 h7 hc0 hc1 x0 x1 x2 x3 x4 xs0 = k0_pay2 x0 x3 x2 x4 x1 xs0 := by
  unfold sout0_C_0
  rw [View.read_writes_eq_canon _ _ _ (scover0_C_0 c i a1 h1 a2 h2 a3 h3 a4 h4 a5 h5 a6 h6 a7 h7 hc0 hc1 x0 x1 x2 x3 x4 xs0)]
  unfold kernelRun0_C
  dsimp only
  sl_unfold_words
  rw [View.canon_unit_zero hz]
  simp only [View.readAt_eq_ld, h1.read_unread, h2.read_unread, h3.read_unread, h4.read_unread, h5.read_unread, h7.read_unread,
    View.ld_unit_zero (S := S256x512) hz, View.ld_unit_zero (S := S4096x512) hz, View.ld_unit_zero (S := S256x1) hz,
    View.ld_unit_zero (S := S1x4096) hz, View.ld_unit_zero (S := S1x1) hz]

/-- and the output block at the same value: the body copies the scratch it has just stored. -/
theorem out_C (c : Dev nD) (i : grid0.Coords) (a1 : Memref sig .tc .vmem S256x512 .bf16) (h1 : a1.IsWhole) (a2 : Memref sig .tc .vmem S256x1 .i32) (h2 : a2.IsWhole) (a3 : Memref sig .tc .vmem S256x1 .f32) (h3 : a3.IsWhole) (a4 : Memref sig .tc .vmem S4096x512 .bf16) (h4 : a4.IsWhole) (a5 : Memref sig .tc .vmem S1x4096 .f32) (h5 : a5.IsWhole) (a6 : Memref sig .tc .vmem S1x1 .f32) (h6 : a6.IsWhole) (a7 : Memref sig .tc .vmem S1x1 .f32) (h7 : a7.IsWhole) (hc0 : ¬cond0_0 i) (hc1 : cond0_1 i)
    (x0 : Vec F S256x512 .bf16) (x1 : Vec F S256x1 .i32) (x2 : Vec F S256x1 .f32) (x3 : Vec F S4096x512 .bf16) (x4 : Vec F S1x4096 .f32) (xs0 : Vec F S1x1 .f32) :
    out0_C_5 c i a1 h1 a2 h2 a3 h3 a4 h4 a5 h5 a6 h6 a7 h7 hc0 hc1 x0 x1 x2 x3 x4 xs0 = k0_pay2 x0 x3 x2 x4 x1 xs0 := by
  unfold out0_C_5
  rw [View.read_writes_eq_canon _ _ _ (cover0_C_5 c i a1 h1 a2 h2 a3 h3 a4 h4 a5 h5 a6 h6 a7 h7 hc0 hc1 x0 x1 x2 x3 x4 xs0)]
  unfold kernelRun0_C
  dsimp only
  sl_unfold_words
  rw [View.canon_unit_zero hz, View.readCov_unit_zero (S := S1x1) _ hz]
  simp only [View.readAt_eq_ld, h1.read_unread, h2.read_unread, h3.read_unread, h4.read_unread, h5.read_unread, h7.read_unread,
    View.ld_unit_zero (S := S256x512) hz, View.ld_unit_zero (S := S4096x512) hz, View.ld_unit_zero (S := S256x1) hz,
    View.ld_unit_zero (S := S1x4096) hz, View.ld_unit_zero (S := S1x1) hz]

/-- The first point: the scratch ends at the step applied to the zero block it has just stored. -/
theorem scratch_A (c : Dev nD) (i : grid0.Coords) (a1 : Memref sig .tc .vmem S256x512 .bf16) (h1 : a1.IsWhole) (a2 : Memref sig .tc .vmem S256x1 .i32) (h2 : a2.IsWhole) (a3 : Memref sig .tc .vmem S256x1 .f32) (h3 : a3.IsWhole) (a4 : Memref sig .tc .vmem S4096x512 .bf16) (h4 : a4.IsWhole) (a5 : Memref sig .tc .vmem S1x4096 .f32) (h5 : a5.IsWhole) (a6 : Memref sig .tc .vmem S1x1 .f32) (h6 : a6.IsWhole) (a7 : Memref sig .tc .vmem S1x1 .f32) (h7 : a7.IsWhole) (hc0 : cond0_0 i) (hc1 : ¬cond0_1 i)
    (x0 : Vec F S256x512 .bf16) (x1 : Vec F S256x1 .i32) (x2 : Vec F S256x1 .f32) (x3 : Vec F S4096x512 .bf16) (x4 : Vec F S1x4096 .f32) :
    sout0_A_0 c i a1 h1 a2 h2 a3 h3 a4 h4 a5 h5 a6 h6 a7 h7 hc0 hc1 x0 x1 x2 x3 x4 = k0_pay2 x0 x3 x2 x4 x1 (k0_pay1 (F := F)) := by
  unfold sout0_A_0
  rw [View.read_writes_eq_canon _ _ _ (scover0_A_0 c i a1 h1 a2 h2 a3 h3 a4 h4 a5 h5 a6 h6 a7 h7 hc0 hc1 x0 x1 x2 x3 x4)]
  unfold kernelRun0_A
  dsimp only
  sl_unfold_words
  rw [View.canon_cons_unit_zero (S := S1x1) hz, View.readCov_unit_zero (S := S1x1) _ hz]
  simp only [View.readAt_eq_ld, h1.read_unread, h2.read_unread, h3.read_unread, h4.read_unread, h5.read_unread, h7.read_unread,
    View.ld_unit_zero (S := S256x512) hz, View.ld_unit_zero (S := S4096x512) hz, View.ld_unit_zero (S := S256x1) hz,
    View.ld_unit_zero (S := S1x4096) hz, View.ld_unit_zero (S := S1x1) hz]

end Cert.KernelIdeal.Tile

end
-- ==== Proof.LibColumns.lean ====
/-
  Columns: arrays whose last axis has extent one.

  A sum or a minimum over the last axis that keeps the axis leaves an [a, 1] array; these lemmas read the three
  re-layings of such a column at an index: a vector [a] cast to the column [a, 1], the column [a, 1] cast to the row
  [1, a], and the column [a, 1] broadcast along a new last axis to [a, b].  In row-major order entry (i, 0) of [a, 1],
  entry i of [a] and entry (0, i) of [1, a] all sit at position i.
-/
import Idealize.ShloMosaic.Lib.Pipeline.Value
import Idealize.ShloMosaic.Lib.ValueIdx

namespace Idealize.ShloMosaic.Columns

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The column `[a, 1]` cast to the row `[1, a]` reads, at `(u, i)`, the operand at `(i, 0)`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- The column `[a, 1]` broadcast to `[a, b]` reads, at `(p, c)`, the operand at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Idealize.ShloMosaic.Columns
-- ==== Proof.LibSumBlocks.lean ====
/-
  A sum over m·n consecutive indices, taken block by block.

  The indices below m·n are the numbers n·h + d with h below m and d below n, each exactly once; so a sum over them is
  the sum over the m blocks h of the sums over each block's n entries d.  For eight blocks the outer sum is written out
  as the eight block sums added left to right.  The values may lie in any additive commutative monoid.
-/
import Mathlib.Algebra.BigOperators.Fin
import Mathlib.Logic.Equiv.Fin.Basic

namespace Idealize.ShloMosaic.SumBlocks

open scoped BigOperators

/-- Entry d of block h lies below m·n. -/
theorem block_lt {m n : ℕ} (h : Fin m) (d : Fin n) : n * h.val + d.val < m * n :=
  calc n * h.val + d.val < n * h.val + n := Nat.add_lt_add_left d.isLt _
    _ = n * (h.val + 1) := (Nat.mul_succ n h.val).symm
    _ ≤ n * m := Nat.mul_le_mul_left n h.isLt
    _ = m * n := Nat.mul_comm n m

/-- A sum over the indices below m·n is the sum over the blocks of the blocks' sums. -/
theorem sum_eq_sum_blocks {M : Type*} [AddCommMonoid M] (m n : ℕ) (f : Fin (m * n) → M) :
    ∑ j, f j = ∑ h : Fin m, ∑ d : Fin n, f ⟨n * h.val + d.val, block_lt h d⟩ := by
  rw [← Equiv.sum_comp finProdFinEquiv f, Fintype.sum_prod_type]
  refine Finset.sum_congr rfl fun h _ => Finset.sum_congr rfl fun d _ => ?_
  exact congrArg f (Fin.ext (Nat.add_comm _ _))

/-- Eight blocks, added left to right. -/
theorem sum_eq_eight_blocks {M : Type*} [AddCommMonoid M] (n : ℕ) (f : Fin (8 * n) → M) :
    ∑ j, f j
      = (∑ d : Fin n, f ⟨n * (0 : Fin 8).val + d.val, block_lt 0 d⟩)
        + (∑ d : Fin n, f ⟨n * (1 : Fin 8).val + d.val, block_lt 1 d⟩)
        + (∑ d : Fin n, f ⟨n * (2 : Fin 8).val + d.val, block_lt 2 d⟩)
        + (∑ d : Fin n, f ⟨n * (3 : Fin 8).val + d.val, block_lt 3 d⟩)
        + (∑ d : Fin n, f ⟨n * (4 : Fin 8).val + d.val, block_lt 4 d⟩)
        + (∑ d : Fin n, f ⟨n * (5 : Fin 8).val + d.val, block_lt 5 d⟩)
        + (∑ d : Fin n, f ⟨n * (6 : Fin 8).val + d.val, block_lt 6 d⟩)
        + (∑ d : Fin n, f ⟨n * (7 : Fin 8).val + d.val, block_lt 7 d⟩) := by
  rw [sum_eq_sum_blocks 8 n f, Fin.sum_univ_eight]

end Idealize.ShloMosaic.SumBlocks
-- ==== Proof.MaskedMin.lean ====
/-
  The masked row minima of squared distances, and their sum.

  For rows e(i,·) of a [16384, 512] array, rows c(j,·) of a [4096, 512] array and one integer label per row i:

    sqnorm x i   = 0 + Σₖ x(i,k)·x(i,k)                     the squared norm of row i
    cross e c i j = Σₖ e(i,k)·c(j,k)                         the inner product of row i of e and row j of c
    dist e c i j  = (sqnorm e i + sqnorm c j) − 2·cross e c i j   the squared distance, by the polarisation identity
    masked … i j  = 0 if j is row i's label, else dist e c i j
    rowMin … i    = the least masked … i j over the 4096 columns j (from +∞)
    total …       = 0 + Σᵢ rowMin … i

  Two laws join the two ways the programs spell this.  Masking by a PRODUCT with one minus the label's indicator is
  masking by SELECTION: on the extended reals d·(1 − 1) = d·0 = 0 for every d, infinite ones included, and
  d·(1 − 0) = d·1 = d; no finiteness is needed.  And the sum over the 16384 rows taken as 64 consecutive tiles of 256
  rows, accumulated tile after tile from 0, is the sum over all rows: addition of extended reals is associative and
  commutative.
-/
import Idealize.ShloMosaic.PureOps.Ideal
import Idealize.ShloMosaic.PureOps.Ideal.Laws
import Idealize.ShloMosaic.Lib.ValueIdx
import Idealize.ShloMosaic.Lib.IdealHost
import Idealize.ShloMosaic.Lib.Affine
import proofs.«136157_j9285719294140_1_alg».proof.Proof.LibSumBlocks

noncomputable section

namespace MaskedMin

open Idealize.ShloMosaic Idealize.ShloMosaic.ValueIdx Idealize.ShloMosaic.SumBlocks
open scoped BigOperators

/-- The shapes of the three arguments. -/
abbrev SE : Shape := ⟨2, ![16384, 512]⟩
abbrev SL : Shape := ⟨1, ![16384]⟩
abbrev SC : Shape := ⟨2, ![4096, 512]⟩

/-- The squared norm of row `i`, summed from the zero word. -/
def sqnorm {n : Nat} (x : (⟨2, ![n, 512]⟩ : Shape).Idx → Ideal .f32) (i : Fin n) : Ideal .f32 :=
  Ideal.ofBits .f32 0x00000000#32 + ∑ k : Fin 512, x (ix2 i k) * x (ix2 i k)

/-- The inner product of row `i` of `e` and row `j` of `c`. -/
def cross (e : SE.Idx → Ideal .f32) (c : SC.Idx → Ideal .f32) (i : Fin 16384) (j : Fin 4096) : Ideal .f32 :=
  ∑ k : Fin 512, e (ix2 i k) * c (ix2 j k)

/-- The squared distance between row `i` of `e` and row `j` of `c`: ‖e‖² + ‖c‖² − 2 e·c. -/
def dist (e : SE.Idx → Ideal .f32) (c : SC.Idx → Ideal .f32) (i : Fin 16384) (j : Fin 4096) : Ideal .f32 :=
  (sqnorm e i + sqnorm c j) - Ideal.ofBits .f32 0x40000000#32 * cross e c i j

/-- The distance with the label's own column set to zero. -/
def masked (e : SE.Idx → Ideal .f32) (l : SL.Idx → BitVec 32) (c : SC.Idx → Ideal .f32) (i : Fin 16384) (j : Fin 4096) :
    Ideal .f32 :=
  Scalar.select (IntOp.cmpi .eq (BitVec.ofNat 32 j.val) (l (ix1 i))) (Ideal.ofBits .f32 0x00000000#32) (dist e c i j)

/-- The least of row `i`'s masked distances, from +∞. -/
def rowMin (e : SE.Idx → Ideal .f32) (l : SL.Idx → BitVec 32) (c : SC.Idx → Ideal .f32) (i : Fin 16384) : Ideal .f32 :=
  (Finset.univ : Finset (Fin 4096)).fold (FloatOps.minimumf (F := Ideal) (φ := .f32)) (Ideal.ofBits .f32 0x7F800000#32)
    (fun j => masked e l c i j)

/-- Row `r` of tile `t`: row 256·t + r of the whole. -/
abbrev rowOf (t : Fin 64) (r : Fin 256) : Fin 16384 := ⟨256 * t.val + r.val, block_lt t r⟩

/-- The sum of the row minima of tile `t`. -/
def tileSum (e : SE.Idx → Ideal .f32) (l : SL.Idx → BitVec 32) (c : SC.Idx → Ideal .f32) (t : Fin 64) : Ideal .f32 :=
  ∑ r : Fin 256, rowMin e l c (rowOf t r)

/-- The sum of all row minima, from the zero word. -/
def total (e : SE.Idx → Ideal .f32) (l : SL.Idx → BitVec 32) (c : SC.Idx → Ideal .f32) : Ideal .f32 :=
  Ideal.ofBits .f32 0x00000000#32 + ∑ i : Fin 16384, rowMin e l c i

/-! ## Masking by a product is masking by selection -/

/-- The indicator word read as an unsigned integer is 1 or 0. -/
theorem uitofp_cmpi_eq (a b : BitVec 32) :
    (FloatOps.uitofp (F := Ideal) .f32 (IntOp.cmpi .eq a b) : Ideal .f32) = if a = b then 1 else 0 := by
  by_cases h : a = b
  · rw [if_pos h, IntOp.cmpi_eq.mpr h]; show (((1#1 : BitVec 1).toNat : ℝ) : EReal) = 1; norm_num
  · have h0 : IntOp.cmpi .eq a b = 0#1 := eq_zero_of_ne_one fun h1 => h (IntOp.cmpi_eq.mp h1)
    rw [if_neg h, h0]; show (((0#1 : BitVec 1).toNat : ℝ) : EReal) = 0; norm_num

/-- `d · (1 − [a = b])` is `0` where `b = a` and `d` elsewhere, for every extended real `d`. -/
theorem mul_one_sub_indicator (d : Ideal .f32) (a b : BitVec 32) :
    d * (Ideal.ofBits .f32 0x3F800000#32 - FloatOps.uitofp (F := Ideal) .f32 (IntOp.cmpi .eq a b))
      = Scalar.select (IntOp.cmpi .eq b a) (Ideal.ofBits .f32 0x00000000#32) d := by
  rw [uitofp_cmpi_eq, Ideal.ofBits_one_f32, Ideal.ofBits_zero_f32]
  by_cases h : a = b
  · rw [if_pos h, IntOp.cmpi_eq.mpr h.symm, select_one]
    show d * ((1 : EReal) - 1) = 0
    rw [show ((1 : EReal) - 1) = 0 from by
      rw [show (1 : EReal) = ((1 : ℝ) : EReal) from rfl, ← EReal.coe_sub, sub_self, EReal.coe_zero], mul_zero]
  · have h0 : IntOp.cmpi .eq b a = 0#1 := eq_zero_of_ne_one fun h1 => h (IntOp.cmpi_eq.mp h1).symm
    rw [if_neg h, h0, select_zero]
    show d * ((1 : EReal) - 0) = d
    rw [sub_zero, mul_one]

/-! ## The rows one by one and tile by tile -/

/-- The indices of a one-axis shape are the coordinates. -/
def idxEquiv1 {n : Nat} : (⟨1, ![n]⟩ : Shape).Idx ≃ Fin n where
  toFun j := j 0
  invFun a := ix1 a
  left_inv j := (eq_ix1 j).symm
  right_inv _ := rfl

theorem sum_idx1 {M : Type*} [AddCommMonoid M] {n : Nat} (f : (⟨1, ![n]⟩ : Shape).Idx → M) :
    ∑ j, f j = ∑ a : Fin n, f (ix1 a) :=
  (Equiv.sum_comp idxEquiv1.symm f).symm

/-- The sum over all rows is the sum over the tiles of the tiles' sums. -/
theorem total_eq_tiles (e : SE.Idx → Ideal .f32) (l : SL.Idx → BitVec 32) (c : SC.Idx → Ideal .f32) :
    total e l c = Ideal.ofBits .f32 0x00000000#32 + ∑ t : Fin 64, tileSum e l c t := by
  unfold total tileSum
  exact congrArg (_ + ·) (sum_eq_sum_blocks 64 256 (fun i : Fin (64 * 256) => rowMin e l c i))

/-- The sum accumulated tile after tile: the zero word plus tile 0, then plus each next tile. -/
def running (e : SE.Idx → Ideal .f32) (l : SL.Idx → BitVec 32) (c : SC.Idx → Ideal .f32) : (n : ℕ) → n < 64 → Ideal .f32
  | 0, h => Ideal.ofBits .f32 0x00000000#32 + tileSum e l c ⟨0, h⟩
  | n + 1, h => running e l c n (Nat.lt_of_succ_lt h) + tileSum e l c ⟨n + 1, h⟩

/-- Tile `n`'s sum, zero past the last tile. -/
def tileAt (e : SE.Idx → Ideal .f32) (l : SL.Idx → BitVec 32) (c : SC.Idx → Ideal .f32) (n : ℕ) : Ideal .f32 :=
  if h : n < 64 then tileSum e l c ⟨n, h⟩ else 0

theorem running_eq_range (e : SE.Idx → Ideal .f32) (l : SL.Idx → BitVec 32) (c : SC.Idx → Ideal .f32) :
    ∀ (n : ℕ) (h : n < 64), running e l c n h
      = Ideal.ofBits .f32 0x00000000#32 + ∑ t ∈ Finset.range (n + 1), tileAt e l c t
  | 0, h => by
    rw [Finset.sum_range_one]; unfold running tileAt; rw [dif_pos h]
  | n + 1, h => by
    rw [Finset.sum_range_succ, ← add_assoc, ← running_eq_range e l c n (Nat.lt_of_succ_lt h)]
    show running e l c n _ + tileSum e l c ⟨n + 1, h⟩ = running e l c n _ + tileAt e l c (n + 1)
    unfold tileAt; rw [dif_pos h]

/-- After the last tile the accumulated sum is the sum over all rows. -/
theorem running_last (e : SE.Idx → Ideal .f32) (l : SL.Idx → BitVec 32) (c : SC.Idx → Ideal .f32) :
    running e l c 63 (by decide) = total e l c := by
  rw [running_eq_range, total_eq_tiles, Finset.sum_range]
  refine congrArg (_ + ·) (Finset.sum_congr rfl fun t _ => ?_)
  unfold tileAt; rw [dif_pos t.isLt]

end MaskedMin

end
-- ==== Proof.TileBlocks.lean ====
/-
  The blocks a grid point is handed, as functions of the three arguments.

  Before the region the host forms: the labels as a column [16384, 1]; each embedding row's squared norm 0 + Σₖ e(i,k)²
  as a column [16384, 1]; each center row's squared norm as a column [4096, 1] re-laid as the row [1, 4096]; and the
  embeddings and the centers in a narrower float format, which at the ideal values changes nothing.  Grid point t is
  handed rows 256·t … 256·t + 255 of the first three and the whole of the last two.  So at point t, row r, the blocks
  read: the embedding row 256·t + r; that row's label; that row's squared norm; every center row; every center row's
  squared norm.
-/
import proofs.«136157_j9285719294140_1_alg».proof.Proof.Gen.KernelIdeal.Frame
import proofs.«136157_j9285719294140_1_alg».proof.Proof.LibColumns
import proofs.«136157_j9285719294140_1_alg».proof.Proof.MaskedMin
import Idealize.ShloMosaic.Lib.Pipeline.Value
import Idealize.ShloMosaic.Lib.StableHlo.Run
import Idealize.ShloMosaic.Lib.ValueIdx
import Idealize.ShloMosaic.PureOps.Ideal.Laws

noncomputable section

namespace Cert.KernelIdeal.Tile

open Cert.KernelIdeal Cert.KernelIdeal.Gen
open Idealize.ShloMosaic Idealize.ShloMosaic.TcCoe Idealize.SL.Sem Idealize.ShloMosaic.StableHlo
open Idealize.ShloMosaic.ValueIdx Idealize.ShloMosaic.Columns
open scoped BigOperators

variable (m : (ℓ : Loc nD τ sig) → Buf (Elt Ideal) ℓ)

/-- The three arguments as the region's core finds them. -/
abbrev argE (c : Dev nD) : FVec Ideal S16384x512 .f32 := m ((c : Thread nD τ).loc main_arg0)
abbrev argL (c : Dev nD) : IVec S16384 32 := m ((c : Thread nD τ).loc main_arg1)
abbrev argC (c : Dev nD) : FVec Ideal S4096x512 .f32 := m ((c : Thread nD τ).loc main_arg2)

/-! ## The arrays the host wrote before the region -/

theorem V_emb (c : Dev nD) : (V m c main_v8 : S16384x512.Idx → Ideal .bf16) = truncf .bf16 (argE m c) bitsLt_bf16_f32 := by
  show StableHlo.after hostOps0 (fun b => m (c, b)) (Proc.devRef .tc main_v8) = _
  after_results <;> rfl

theorem V_cen (c : Dev nD) : (V m c main_v9 : S4096x512.Idx → Ideal .bf16) = truncf .bf16 (argC m c) bitsLt_bf16_f32 := by
  show StableHlo.after hostOps0 (fun b => m (c, b)) (Proc.devRef .tc main_v9) = _
  after_results <;> rfl

theorem V_lbl (c : Dev nD) : (V m c main_v0 : S16384x1.Idx → BitVec 32) = shapeCast S16384x1 (argL m c) shapeCasts_S16384_S16384x1 := by
  show StableHlo.after hostOps0 (fun b => m (c, b)) (Proc.devRef .tc main_v0) = _
  after_results <;> rfl

theorem V_esq (c : Dev nD) : (V m c main_v3 : S16384x1.Idx → Ideal .f32)
    = broadcastInDim S16384x1 ![0] bcast_S16384_S16384x1_0
        (Host.reduceAdd (F := Ideal) (mulf (argE m c) (argE m c)) (constant (F := Ideal) S_ .f32 0x00000000#32) reducesTo_S16384x512_S16384_d1 h_S_) := by
  show StableHlo.after hostOps0 (fun b => m (c, b)) (Proc.devRef .tc main_v3) = _
  after_results <;> rfl

theorem V_csq (c : Dev nD) : (V m c main_v7 : S1x4096.Idx → Ideal .f32)
    = shapeCast S1x4096 (broadcastInDim S4096x1 ![0] bcast_S4096_S4096x1_0
        (Host.reduceAdd (F := Ideal) (mulf (argC m c) (argC m c)) (constant (F := Ideal) S_ .f32 0x00000000#32) reducesTo_S4096x512_S4096_d1 h_S_))
        shapeCasts_S4096x1_S1x4096 := by
  show StableHlo.after hostOps0 (fun b => m (c, b)) (Proc.devRef .tc main_v7) = _
  after_results <;> rfl

/-! ## Those arrays at an index -/

/-- The host's sum of squares along a row of an [n, 512] array, from the zero word. -/
theorem rowSq {n : ℕ} (x : (⟨2, ![n, 512]⟩ : Shape).Idx → Ideal .f32) (h' : (⟨2, ![n, 512]⟩ : Shape).ReducesTo [1] ⟨1, ![n]⟩)
    (h : (⟨2, ![n, 512]⟩ : Shape).Reduces [1] ⟨1, ![n]⟩) (hu : 0 < S_.numel) (i : Fin n) :
    Host.reduceAdd (F := Ideal) (mulf x x) (constant (F := Ideal) S_ .f32 0x00000000#32) h' hu (ix1 i) = MaskedMin.sqnorm x i := by
  simp only [Host.reduceAdd, Ideal.hostReduceAdd_def]
  rw [Ideal.hostReduceAdd_single h' h]
  unfold MaskedMin.sqnorm
  refine congrArg₂ (· + ·) rfl (Finset.sum_congr rfl fun k _ => ?_)
  have e : h.lift (ix1 i) k = ix2 i k := funext fun a => Fin.ext (by match a with | ⟨0, _⟩ => rfl | ⟨1, _⟩ => rfl)
  show x (h.lift (ix1 i) k) * x (h.lift (ix1 i) k) = _
  rw [e]; rfl

theorem esq_apply (c : Dev nD) (i : Fin 16384) : V m c main_v3 (ix2 i (0 : Fin 1)) = MaskedMin.sqnorm (argE m c) i := by
  rw [V_esq]
  refine (broadcastInDim_apply _ bcast_S16384_S16384x1_0 _ (ix2 i (0 : Fin 1)) (ix1 i) (fun a => match a with
    | ⟨0, _⟩ => by show i.val = if (16384 : Nat) = 1 then 0 else i.val; rw [if_neg (by decide)])).trans ?_
  exact rowSq (argE m c) reducesTo_S16384x512_S16384_d1 (by decide) h_S_ i

theorem csq_apply (c : Dev nD) (j : Fin 4096) : V m c main_v7 (ix2 (0 : Fin 1) j) = MaskedMin.sqnorm (argC m c) j := by
  rw [V_csq]
  refine (shapeCast_a1_1a_apply _ shapeCasts_S4096x1_S1x4096 (0 : Fin 1) j).trans ?_
  refine (broadcastInDim_apply _ bcast_S4096_S4096x1_0 _ (ix2 j (0 : Fin 1)) (ix1 j) (fun a => match a with
    | ⟨0, _⟩ => by show j.val = if (4096 : Nat) = 1 then 0 else j.val; rw [if_neg (by decide)])).trans ?_
  exact rowSq (argC m c) reducesTo_S4096x512_S4096_d1 (by decide) h_S_ j

theorem lbl_apply (c : Dev nD) (i : Fin 16384) : V m c main_v0 (ix2 i (0 : Fin 1)) = argL m c (ix1 i) := by
  rw [V_lbl]
  exact shapeCast_a_a1_apply _ shapeCasts_S16384_S16384x1 i (0 : Fin 1)

theorem emb_apply (c : Dev nD) (i : Fin 16384) (k : Fin 512) : V m c main_v8 (ix2 i k) = argE m c (ix2 i k) := by
  rw [V_emb]; rfl

theorem cen_apply (c : Dev nD) (j : Fin 4096) (k : Fin 512) : V m c main_v9 (ix2 j k) = argC m c (ix2 j k) := by
  rw [V_cen]; rfl

/-! ## The blocks at a grid point -/

/-- Where each window's block sits at point `t`: the three tiled windows at block row `t`, the two whole ones at the origin. -/
theorem blockAt : ∀ t : Fin cfg0.N,
    (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = 0 ∧ win0_3.index t 1 = 0)
    ∧ (win0_4.index t 0 = 0 ∧ win0_4.index t 1 = 0) :=
  (by decide +kernel : ∀ t : Fin grid0.N,
    (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = 0 ∧ win0_3.index t 1 = 0)
    ∧ (win0_4.index t 0 = 0 ∧ win0_4.index t 1 = 0))

/-- Row `r` of tile `t`. -/
abbrev rowAt (t : Fin cfg0.N) (r : Fin 256) : Fin 16384 :=
  ⟨256 * t.val + r.val, by have hN : t.val < 64 := lt_of_lt_of_eq t.isLt N_0; have := r.isLt; omega⟩

theorem embBlk_apply (c : Dev nD) (t : Fin cfg0.N) (r : Fin 256) (k : Fin 512) :
    (iblk m c 0 t : Vec Ideal S256x512 .bf16) (ix2 r k) = argE m c (ix2 (rowAt t r) k) := by
  refine Eq.trans ?_ (emb_apply m c (rowAt t r) k)
  unfold iblk
  rw [View.read_apply]
  show V m c main_v8 _ = V m c main_v8 _
  refine congrArg (V m c main_v8) (funext fun a => Fin.ext ?_)
  match a with
  | ⟨0, _⟩ => show win0_0.index t 0 * 256 + 1 * r.val = 256 * t.val + r.val; rw [(blockAt t).1.1]; omega
  | ⟨1, _⟩ => show win0_0.index t 1 * 512 + 1 * k.val = k.val; rw [(blockAt t).1.2]; omega

theorem lblBlk_apply (c : Dev nD) (t : Fin cfg0.N) (r : Fin 256) :
    (iblk m c 1 t : Vec Ideal S256x1 .i32) (ix2 r (0 : Fin 1)) = argL m c (ix1 (rowAt t r)) := by
  refine Eq.trans ?_ (lbl_apply m c (rowAt t r))
  unfold iblk
  rw [View.read_apply]
  show V m c main_v0 _ = V m c main_v0 _
  refine congrArg (V m c main_v0) (funext fun a => Fin.ext ?_)
  match a with
  | ⟨0, _⟩ => show win0_1.index t 0 * 256 + 1 * r.val = 256 * t.val + r.val; rw [(blockAt t).2.1.1]; omega
  | ⟨1, _⟩ => show win0_1.index t 1 * 1 + 1 * 0 = 0; rw [(blockAt t).2.1.2]

theorem esqBlk_apply (c : Dev nD) (t : Fin cfg0.N) (r : Fin 256) :
    (iblk m c 2 t : Vec Ideal S256x1 .f32) (ix2 r (0 : Fin 1)) = MaskedMin.sqnorm (argE m c) (rowAt t r) := by
  refine Eq.trans ?_ (esq_apply m c (rowAt t r))
  unfold iblk
  rw [View.read_apply]
  show V m c main_v3 _ = V m c main_v3 _
  refine congrArg (V m c main_v3) (funext fun a => Fin.ext ?_)
  match a with
  | ⟨0, _⟩ => show win0_2.index t 0 * 256 + 1 * r.val = 256 * t.val + r.val; rw [(blockAt t).2.2.1.1]; omega
  | ⟨1, _⟩ => show win0_2.index t 1 * 1 + 1 * 0 = 0; rw [(blockAt t).2.2.1.2]

theorem cenBlk_apply (c : Dev nD) (t : Fin cfg0.N) (j : Fin 4096) (k : Fin 512) :
    (iblk m c 3 t : Vec Ideal S4096x512 .bf16) (ix2 j k) = argC m c (ix2 j k) := by
  refine Eq.trans ?_ (cen_apply m c j k)
  unfold iblk
  rw [View.read_apply]
  show V m c main_v9 _ = V m c main_v9 _
  refine congrArg (V m c main_v9) (funext fun a => Fin.ext ?_)
  match a with
  | ⟨0, _⟩ => show win0_3.index t 0 * 4096 + 1 * j.val = j.val; rw [(blockAt t).2.2.2.1.1]; omega
  | ⟨1, _⟩ => show win0_3.index t 1 * 512 + 1 * k.val = k.val; rw [(blockAt t).2.2.2.1.2]; omega

theorem csqBlk_apply (c : Dev nD) (t : Fin cfg0.N) (j : Fin 4096) :
    (iblk m c 4 t : Vec Ideal S1x4096 .f32) (ix2 (0 : Fin 1) j) = MaskedMin.sqnorm (argC m c) j := by
  refine Eq.trans ?_ (csq_apply m c j)
  unfold iblk
  rw [View.read_apply]
  show V m c main_v7 _ = V m c main_v7 _
  refine congrArg (V m c main_v7) (funext fun a => Fin.ext ?_)
  match a with
  | ⟨0, _⟩ => show win0_4.index t 0 * 1 + 1 * 0 = 0; rw [(blockAt t).2.2.2.2.1]
  | ⟨1, _⟩ => show win0_4.index t 1 * 4096 + 1 * j.val = j.val; rw [(blockAt t).2.2.2.2.2]; omega

end Cert.KernelIdeal.Tile

end
-- ==== Proof.TilePayload.lean ====
/-
  One tile of 256 rows: what the kernel's body adds to its running sum.

  At a grid point the body holds a tile of 256 rows of the embeddings, the tile's labels and squared norms, all 4096
  centers and their squared norms.  It forms the 256 × 4096 block of squared distances ‖e_r‖² + ‖c_j‖² − 2 ⟨e_r, c_j⟩
  (the inner products by one matrix product into a zero accumulator), sets the entry of each row's own label column to
  zero, takes each row's minimum from +∞, sums the 256 minima, and adds the sum to what it carried.  Read at the ideal
  values, entry by entry, that is: carried + Σ_r min_j masked(r, j).
-/
import proofs.«136157_j9285719294140_1_alg».proof.Proof.Gen.KernelIdeal.Skeleton
import proofs.«136157_j9285719294140_1_alg».proof.Proof.LibColumns
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Tile

open Cert.KernelIdeal Cert.KernelIdeal.Gen
open Idealize.ShloMosaic Idealize.ShloMosaic.ValueIdx Idealize.ShloMosaic.Columns
open scoped BigOperators

/-- A row's minimum over the 4096 columns of a [256, 4096] block, from +∞. -/
theorem minRow (src : FVec Ideal S256x4096 .f32) (h : S256x4096.Reduces [1] S256) (hφ : FKind.Formats .f32)
    (hacc : (0x7F800000#32 : BitVec 32) = FKind.minimumf.neutral .f32 hφ) (r : Fin 256) :
    multiReduction .minimumf [1] S256 src 0x7F800000#32 h hφ hacc (ix1 r)
      = (Finset.univ : Finset (Fin 4096)).fold (FloatOps.minimumf (F := Ideal) (φ := .f32)) (Ideal.ofBits .f32 0x7F800000#32)
          (fun j => src (ix2 r j)) := by
  refine (multiReduction_minimumf_eq_fold src _ h hφ hacc (ix1 r)).trans ?_
  refine (h.fold_filter_drop_single _ _ src (ix1 r)).trans ?_
  refine Finset.fold_congr fun j _ => ?_
  exact congrArg src (funext fun a => Fin.ext (by match a with | ⟨0, _⟩ => rfl | ⟨1, _⟩ => rfl))

/-- The sum of a [256, 1] column over its rows. -/
theorem sumCol (src : FVec Ideal S256x1 .f32) (h : S256x1.Reduces [0] S1) (hφ : FKind.Formats .f32)
    (hacc : (0x00000000#32 : BitVec 32) = FKind.add.neutral .f32 hφ) (u : Fin 1) :
    multiReduction .add [0] S1 src 0x00000000#32 h hφ hacc (ix1 u) = ∑ r : Fin 256, src (ix2 r (0 : Fin 1)) := by
  refine (Ideal.multiReduction_add_single src _ h hφ hacc (ix1 u)).trans ?_
  refine Finset.sum_congr rfl fun r _ => congrArg src (funext fun a => Fin.ext ?_)
  match a with
  | ⟨0, _⟩ => rfl
  | ⟨1, _⟩ => show u.val = 0; omega

/-- The left operand's index at output entry `i` and contraction position `q`: row `i 0`, column `q`. -/
theorem lhs_row (i : S256x4096.Idx) (q : dot_S256x512_S4096x512_S256x4096_1_1_0_0_n_n.contr.Idx) : (dot_S256x512_S4096x512_S256x4096_1_1_0_0_n_n.lhsIdx i q 0).val = (i 0).val := by
  unfold DotDims.lhsIdx
  rw [dif_neg (show ¬(0 : Fin S256x512.rank) ∈ dot_S256x512_S4096x512_S256x4096_1_1_0_0_n_n.lhsBatch by decide), dif_pos (show (0 : Fin S256x512.rank) ∈ dot_S256x512_S4096x512_S256x4096_1_1_0_0_n_n.lhsNonContracting by decide)]
  rfl
theorem lhs_col (i : S256x4096.Idx) (q : dot_S256x512_S4096x512_S256x4096_1_1_0_0_n_n.contr.Idx) : (dot_S256x512_S4096x512_S256x4096_1_1_0_0_n_n.lhsIdx i q 1).val = (q ⟨0, by decide⟩).val :=
  dot_S256x512_S4096x512_S256x4096_1_1_0_0_n_n.lhsIdx_val_of_single rfl i q
/-- The right operand's index: row `i 1` (the center), column `q`. -/
theorem rhs_row (i : S256x4096.Idx) (q : dot_S256x512_S4096x512_S256x4096_1_1_0_0_n_n.contr.Idx) : (dot_S256x512_S4096x512_S256x4096_1_1_0_0_n_n.rhsIdx i q 0).val = (i 1).val := by
  unfold DotDims.rhsIdx
  rw [dif_neg (show ¬(0 : Fin S4096x512.rank) ∈ dot_S256x512_S4096x512_S256x4096_1_1_0_0_n_n.rhsBatch by decide), dif_pos (show (0 : Fin S4096x512.rank) ∈ dot_S256x512_S4096x512_S256x4096_1_1_0_0_n_n.rhsNonContracting by decide)]
  rfl
theorem rhs_col (i : S256x4096.Idx) (q : dot_S256x512_S4096x512_S256x4096_1_1_0_0_n_n.contr.Idx) : (dot_S256x512_S4096x512_S256x4096_1_1_0_0_n_n.rhsIdx i q 1).val = (q ⟨0, by decide⟩).val :=
  dot_S256x512_S4096x512_S256x4096_1_1_0_0_n_n.rhsIdx_val_of_single rfl i q

/-- The matrix product of a tile's rows with all the centers' rows, into a zero accumulator: the inner products. -/
theorem crossBlk (e : FVec Ideal S256x512 .bf16) (c : FVec Ideal S4096x512 .bf16) (r : Fin 256) (j : Fin 4096) :
    matmul dot_S256x512_S4096x512_S256x4096_1_1_0_0_n_n none e c (constant (F := Ideal) S256x4096 .f32 0x00000000#32) (ix2 r j)
      = ∑ k : Fin 512, e (ix2 r k) * c (ix2 j k) := by
  simp only [matmul]
  rw [Ideal.matmul_constant_zero_apply, ← Equiv.sum_comp (contrEquiv1 dot_S256x512_S4096x512_S256x4096_1_1_0_0_n_n 512 rfl rfl).symm]
  refine Finset.sum_congr rfl fun k _ => ?_
  have hk := contrEquiv1_symm_val dot_S256x512_S4096x512_S256x4096_1_1_0_0_n_n 512 rfl rfl k
  have el : dot_S256x512_S4096x512_S256x4096_1_1_0_0_n_n.lhsIdx (ix2 r j) ((contrEquiv1 dot_S256x512_S4096x512_S256x4096_1_1_0_0_n_n 512 rfl rfl).symm k) = ix2 r k := funext fun a => Fin.ext (by
    match a with
    | ⟨0, _⟩ => exact lhs_row _ _
    | ⟨1, _⟩ => exact (lhs_col _ _).trans hk)
  have er : dot_S256x512_S4096x512_S256x4096_1_1_0_0_n_n.rhsIdx (ix2 r j) ((contrEquiv1 dot_S256x512_S4096x512_S256x4096_1_1_0_0_n_n 512 rfl rfl).symm k) = ix2 j k := funext fun a => Fin.ext (by
    match a with
    | ⟨0, _⟩ => exact rhs_row _ _
    | ⟨1, _⟩ => exact (rhs_col _ _).trans hk)
  rw [el, er]

/-- Entry (r, j) of a tile's masked block, from the tile's pieces. -/
def maskedAt (e : FVec Ideal S256x512 .bf16) (c : FVec Ideal S4096x512 .bf16) (q : FVec Ideal S256x1 .f32)
    (s : FVec Ideal S1x4096 .f32) (lb : IVec S256x1 32) (r : Fin 256) (j : Fin 4096) : Ideal .f32 :=
  Scalar.select (IntOp.cmpi .eq (BitVec.ofNat 32 j.val) (lb (ix2 r (0 : Fin 1)))) (Ideal.ofBits .f32 0x00000000#32)
    ((q (ix2 r (0 : Fin 1)) + s (ix2 (0 : Fin 1) j)) - Ideal.ofBits .f32 0x40000000#32 * ∑ k : Fin 512, e (ix2 r k) * c (ix2 j k))

/-- What the body stores into its carried [1, 1] sum: the carried entry plus the tile's sum of row minima. -/
theorem pay2_apply (e : FVec Ideal S256x512 .bf16) (c : FVec Ideal S4096x512 .bf16) (q : FVec Ideal S256x1 .f32)
    (s : FVec Ideal S1x4096 .f32) (lb : IVec S256x1 32) (acc : FVec Ideal S1x1 .f32) (u v : Fin 1) :
    k0_pay2 (F := Ideal) e c q s lb acc (ix2 u v)
      = acc (ix2 u v) + ∑ r : Fin 256, (Finset.univ : Finset (Fin 4096)).fold (FloatOps.minimumf (F := Ideal) (φ := .f32))
          (Ideal.ofBits .f32 0x7F800000#32) (fun j => maskedAt e c q s lb r j) := by
  unfold k0_pay2
  simp only [shapeCast_self]
  refine congrArg (acc (ix2 u v) + ·) ?_
  refine (shapeCast_a_a1_apply _ _ u v).trans ?_
  refine (sumCol _ _ _ _ u).trans ?_
  refine Finset.sum_congr rfl fun r _ => ?_
  refine (shapeCast_a_a1_apply _ _ r (0 : Fin 1)).trans ?_
  refine (minRow _ _ _ _ r).trans ?_
  refine Finset.fold_congr fun j _ => ?_
  show Scalar.select (IntOp.cmpi .eq (iota .tc S256x4096 32 [1] Gen.iota_S256x4096_d1_w32 (ix2 r j))
      (broadcastTo S256x4096 lb Gen.broadcasts_S256x1_S256x4096 (ix2 r j))) _
      ((broadcastTo S256x4096 q Gen.broadcasts_S256x1_S256x4096 (ix2 r j)
        + broadcastTo S256x4096 s Gen.broadcasts_S1x4096_S256x4096 (ix2 r j)) - _ * _) = _
  rw [iota_single_apply, broadcastTo_a1_ab_apply, broadcastTo_a1_ab_apply, broadcastTo_1b_ab_apply, crossBlk]
  rfl

end Cert.KernelIdeal.Tile

end
-- ==== Proof.TileSum.lean ====
/-
  The running sum over the grid.

  One step: at grid point t the body turns the carried [1, 1] value into "carried + the sum of tile t's masked row
  minima", the tile's pieces being rows 256·t … 256·t + 255 of the arguments (the blocks read back as functions of
  the arguments).  By induction on the grid point, what the scratch holds after point n is the running sum
  0 + tile 0 + … + tile n; after the last point that is the sum over all 16384 rows, and the last point leaves the
  same value in the output block.
-/
import proofs.«136157_j9285719294140_1_alg».proof.Proof.TileCases
import proofs.«136157_j9285719294140_1_alg».proof.Proof.TileBlocks
import proofs.«136157_j9285719294140_1_alg».proof.Proof.TilePayload
import proofs.«136157_j9285719294140_1_alg».proof.Proof.MaskedMin

noncomputable section

namespace Cert.KernelIdeal.Tile

open Cert.KernelIdeal Cert.KernelIdeal.Gen
open Idealize.ShloMosaic Idealize.ShloMosaic.TcCoe Idealize.SL.Sem
open Idealize.ShloMosaic.ValueIdx
open scoped BigOperators

variable (m : (ℓ : Loc nD τ sig) → Buf (Elt Ideal) ℓ)

/-- Grid point `t` as a tile number. -/
abbrev tileOf (t : Fin cfg0.N) : Fin 64 := ⟨t.val, lt_of_lt_of_eq t.isLt N_0⟩

/-- A tile's masked entry is the whole's, once each of the tile's pieces is read as rows of the arguments. -/
theorem maskedAt_eq (e : FVec Ideal S256x512 .bf16) (cn : FVec Ideal S4096x512 .bf16) (q : FVec Ideal S256x1 .f32)
    (s : FVec Ideal S1x4096 .f32) (lb : IVec S256x1 32)
    (E : MaskedMin.SE.Idx → Ideal .f32) (L : MaskedMin.SL.Idx → BitVec 32) (C : MaskedMin.SC.Idx → Ideal .f32)
    (r : Fin 256) (i : Fin 16384) (j : Fin 4096)
    (he : ∀ k : Fin 512, e (ix2 r k) = E (ix2 i k)) (hc : ∀ k : Fin 512, cn (ix2 j k) = C (ix2 j k))
    (hq : q (ix2 r (0 : Fin 1)) = MaskedMin.sqnorm E i) (hs : s (ix2 (0 : Fin 1) j) = MaskedMin.sqnorm C j)
    (hl : lb (ix2 r (0 : Fin 1)) = L (ix1 i)) :
    maskedAt e cn q s lb r j = MaskedMin.masked E L C i j := by
  unfold maskedAt MaskedMin.masked MaskedMin.dist MaskedMin.cross
  rw [hq, hs, hl, Finset.sum_congr rfl fun k _ => show e (ix2 r k) * cn (ix2 j k) = E (ix2 i k) * C (ix2 j k) by rw [he k, hc k]]

/-- ONE STEP: the body's stored value at point `t`, over a carried value `acc`, is `acc` plus tile `t`'s sum. -/
theorem step_apply (c : Dev nD) (t : Fin cfg0.N) (acc : FVec Ideal S1x1 .f32) (u v : Fin 1) :
    k0_pay2 (F := Ideal) (iblk m c 0 t) (iblk m c 3 t) (iblk m c 2 t) (iblk m c 4 t) (iblk m c 1 t) acc (ix2 u v)
      = acc (ix2 u v) + MaskedMin.tileSum (argE m c) (argL m c) (argC m c) (tileOf t) := by
  refine (pay2_apply (iblk m c 0 t) (iblk m c 3 t) (iblk m c 2 t) (iblk m c 4 t) (iblk m c 1 t) acc u v).trans ?_
  refine congrArg (acc (ix2 u v) + ·) ?_
  unfold MaskedMin.tileSum
  refine Finset.sum_congr rfl fun r _ => ?_
  unfold MaskedMin.rowMin
  refine Finset.fold_congr fun j _ => ?_
  exact maskedAt_eq (iblk m c 0 t) (iblk m c 3 t) (iblk m c 2 t) (iblk m c 4 t) (iblk m c 1 t)
    (argE m c) (argL m c) (argC m c) r (rowAt t r) j
    (fun k => embBlk_apply m c t r k) (fun k => cenBlk_apply m c t j k)
    (esqBlk_apply m c t r) (csqBlk_apply m c t j) (lblBlk_apply m c t r)

/-- The zero block the first point stores reads the zero word. -/
theorem zeroBlk_apply (u v : Fin 1) : k0_pay1 (F := Ideal) (ix2 u v) = Ideal.ofBits .f32 0x00000000#32 := by
  unfold k0_pay1
  simp only [shapeCast_self]
  rfl

/-- The first point: the scratch ends at 0 + tile 0. -/
theorem scratch_first (c : Dev nD) (t : Fin cfg0.N) (h0 : t.val % 64 = 0) (h1 : ¬t.val % 64 = 63) (u v : Fin 1) :
    (outsAt0 m c t.val t.isLt).2 (ix2 u v)
      = Ideal.ofBits .f32 0x00000000#32 + MaskedMin.tileSum (argE m c) (argL m c) (argC m c) (tileOf t) := by
  rw [outsAt0_A m c t h0 h1]
  dsimp only
  refine (congrFun (scratch_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _)
    ((hcond0_0 t).mpr h0) (fun h => h1 ((hcond0_1 t).mp h)) (iblk m c 0 t) (iblk m c 1 t) (iblk m c 2 t) (iblk m c 3 t) (iblk m c 4 t)) (ix2 u v)).trans ?_
  refine (step_apply m c t (k0_pay1 (F := Ideal)) u v).trans ?_
  rw [zeroBlk_apply]

/-- A later point that is not the last: the scratch ends at what the point before left plus tile `t`. -/
theorem scratch_mid (c : Dev nD) (t : Fin cfg0.N) (h0 : ¬t.val % 64 = 0) (h1 : ¬t.val % 64 = 63) (u v : Fin 1) :
    (outsAt0 m c t.val t.isLt).2 (ix2 u v)
      = (outsAt0 m c (t.val - 1) (Nat.lt_of_le_of_lt (Nat.sub_le _ _) t.isLt)).2 (ix2 u v)
        + MaskedMin.tileSum (argE m c) (argL m c) (argC m c) (tileOf t) := by
  rw [outsAt0_B m c t h0 h1]
  dsimp only
  refine (congrFun (scratch_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _)
    (fun h => h0 ((hcond0_0 t).mp h)) (fun h => h1 ((hcond0_1 t).mp h)) (iblk m c 0 t) (iblk m c 1 t) (iblk m c 2 t) (iblk m c 3 t) (iblk m c 4 t)
    (outsAt0 m c (t.val - 1) (Nat.lt_of_le_of_lt (Nat.sub_le _ _) t.isLt)).2) (ix2 u v)).trans ?_
  exact step_apply m c t _ u v

/-- The last point: the scratch, -/
theorem scratch_last (c : Dev nD) (t : Fin cfg0.N) (h0 : ¬t.val % 64 = 0) (h1 : t.val % 64 = 63) (u v : Fin 1) :
    (outsAt0 m c t.val t.isLt).2 (ix2 u v)
      = (outsAt0 m c (t.val - 1) (Nat.lt_of_le_of_lt (Nat.sub_le _ _) t.isLt)).2 (ix2 u v)
        + MaskedMin.tileSum (argE m c) (argL m c) (argC m c) (tileOf t) := by
  rw [outsAt0_C m c t h0 h1]
  dsimp only
  refine (congrFun (scratch_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _)
    (fun h => h0 ((hcond0_0 t).mp h)) ((hcond0_1 t).mpr h1) (iblk m c 0 t) (iblk m c 1 t) (iblk m c 2 t) (iblk m c 3 t) (iblk m c 4 t)
    (outsAt0 m c (t.val - 1) (Nat.lt_of_le_of_lt (Nat.sub_le _ _) t.isLt)).2) (ix2 u v)).trans ?_
  exact step_apply m c t _ u v

/-- and the output block, at the same value. -/
theorem out_last (c : Dev nD) (t : Fin cfg0.N) (h0 : ¬t.val % 64 = 0) (h1 : t.val % 64 = 63) (u v : Fin 1) :
    (outsAt0 m c t.val t.isLt).1 (ix2 u v)
      = (outsAt0 m c (t.val - 1) (Nat.lt_of_le_of_lt (Nat.sub_le _ _) t.isLt)).2 (ix2 u v)
        + MaskedMin.tileSum (argE m c) (argL m c) (argC m c) (tileOf t) := by
  rw [outsAt0_C m c t h0 h1]
  dsimp only
  refine (congrFun (out_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _)
    (fun h => h0 ((hcond0_0 t).mp h)) ((hcond0_1 t).mpr h1) (iblk m c 0 t) (iblk m c 1 t) (iblk m c 2 t) (iblk m c 3 t) (iblk m c 4 t)
    (outsAt0 m c (t.val - 1) (Nat.lt_of_le_of_lt (Nat.sub_le _ _) t.isLt)).2) (ix2 u v)).trans ?_
  exact step_apply m c t _ u v

/-- THE RUNNING SUM: after point `n` the scratch holds 0 + tile 0 + … + tile n — by induction on the point. -/
theorem scratch_eq_running (c : Dev nD) (u v : Fin 1) : ∀ (n : ℕ) (h : n < cfg0.N),
    (outsAt0 m c n h).2 (ix2 u v) = MaskedMin.running (argE m c) (argL m c) (argC m c) n (lt_of_lt_of_eq h N_0)
  | 0, h => scratch_first m c ⟨0, h⟩ rfl (by show ¬(0 % 64 = 63); decide) u v
  | n + 1, h => by
    have hN : n + 1 < 64 := lt_of_lt_of_eq h N_0
    have h0 : ¬(⟨n + 1, h⟩ : Fin cfg0.N).val % 64 = 0 := by dsimp only; omega
    have ih := scratch_eq_running c u v n (Nat.lt_of_succ_lt h)
    show _ = MaskedMin.running _ _ _ n _ + MaskedMin.tileSum _ _ _ ⟨n + 1, _⟩
    by_cases h1 : (⟨n + 1, h⟩ : Fin cfg0.N).val % 64 = 63
    · rw [scratch_last m c ⟨n + 1, h⟩ h0 h1 u v]
      exact congrArg₂ (· + ·) ih rfl
    · rw [scratch_mid m c ⟨n + 1, h⟩ h0 h1 u v]
      exact congrArg₂ (· + ·) ih rfl

/-- The last grid point. -/
abbrev tLast : Fin cfg0.N := ⟨63, by rw [show cfg0.N = 64 from N_0]; decide⟩

/-- After the last point the output block holds the sum of all 16384 masked row minima, from the zero word. -/
theorem out_eq_total (c : Dev nD) (u v : Fin 1) :
    (outsAt0 m c tLast.val tLast.isLt).1 (ix2 u v) = MaskedMin.total (argE m c) (argL m c) (argC m c) := by
  rw [out_last m c tLast (by decide) (by decide) u v, ← MaskedMin.running_last]
  show _ = MaskedMin.running _ _ _ 62 _ + MaskedMin.tileSum _ _ _ ⟨63, _⟩
  exact congrArg₂ (· + ·) (scratch_eq_running m c u v 62 _) rfl

end Cert.KernelIdeal.Tile

end
-- ==== Proof.RefRows.lean ====
/-
  The reference program's second summand, read as mathematics.

  For every row i and column j the reference forms (‖e_i‖² + ‖c_j‖²) − 2·⟨e_i, c_j⟩, multiplies it by one minus the
  indicator "j is row i's label", takes the least of these over the 4096 columns starting from +∞, and adds the
  16384 row minima to zero.  Here each stage of that computation is read at one index:

    * the two broadcast squared norms at (i, j) are the squared norm of row i of e and of row j of c;
    * the product of the broadcast constant 2 with the contraction at (i, j) is 2·⟨e_i, c_j⟩;
    * the factor at (i, j) is 1 − [label i = j], and a product with it is a selection between 0 and the distance;
    * a minimum over one axis is a fold of `min` over that axis's 4096 coordinates, whatever their order;
    * a sum over the indices of a one-axis array is the sum over its 16384 coordinates.

  Together: the stage holding the sum of the row minima is the constant function at `MaskedMin.total`.
-/
import proofs.«136157_j9285719294140_1_alg».proof.Proof.Gen.ReferenceIdeal.Read
import proofs.«136157_j9285719294140_1_alg».proof.Proof.MaskedMin
import Idealize.ShloMosaic.PureOps.Reduce
import Idealize.ShloMosaic.PureOps.Ideal
import Idealize.ShloMosaic.PureOps.Ideal.Laws
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx
open scoped BigOperators

/-! ## The distance's three terms at (i, j) -/

/-- The squared norms of the rows of `e`, broadcast along the columns: at (i, j) the squared norm of row i. -/
theorem sqnorm_rows (x0 : (⟨S16384x512, .f32⟩ : BufTy).Contents (Elt Ideal)) (i : Fin 16384) (j : Fin 4096) :
    val_main_v18 (F := Ideal) x0 (ix2 i j) = MaskedMin.sqnorm x0 i := by
  rw [val_main_v18_apply, val_main_v12_apply, val_main_v11_apply]
  unfold MaskedMin.sqnorm
  refine congrArg₂ (· + ·) rfl (Finset.sum_congr rfl fun k _ => ?_)
  rw [val_main_v10_apply]
  have e : idx_main_v11 (idx_main_v12 (idx_main_v18 (ix2 i j))) k = ix2 i k :=
    funext fun a => Fin.ext (by match a with | ⟨0, _⟩ => rfl | ⟨1, _⟩ => rfl)
  rw [e]; rfl

/-- The squared norms of the rows of `c`, broadcast along the rows: at (i, j) the squared norm of row j of `c`. -/
theorem sqnorm_cols (x2 : (⟨S4096x512, .f32⟩ : BufTy).Contents (Elt Ideal)) (i : Fin 16384) (j : Fin 4096) :
    val_main_v19 (F := Ideal) x2 (ix2 i j) = MaskedMin.sqnorm x2 j := by
  rw [val_main_v19_apply, val_main_v15_apply, val_main_v14_apply]
  unfold MaskedMin.sqnorm
  refine congrArg₂ (· + ·) rfl (Finset.sum_congr rfl fun k _ => ?_)
  rw [val_main_v13_apply]
  have e : idx_main_v14 (idx_main_v15 (idx_main_v19 (ix2 i j))) k = ix2 j k :=
    funext fun a => Fin.ext (by match a with | ⟨0, _⟩ => rfl | ⟨1, _⟩ => rfl)
  rw [e]; rfl

/-- The contraction of `e` with the transpose of `c`: at (i, j) the inner product of row i of `e` and row j of `c`. -/
theorem cross_eq (x0 : (⟨S16384x512, .f32⟩ : BufTy).Contents (Elt Ideal)) (x2 : (⟨S4096x512, .f32⟩ : BufTy).Contents (Elt Ideal))
    (i : Fin 16384) (j : Fin 4096) :
    val_main_v17 (F := Ideal) x0 x2 (ix2 i j) = MaskedMin.cross x0 x2 i j := by
  rw [val_main_v17_apply]
  unfold MaskedMin.cross
  refine Finset.sum_congr rfl fun k _ => ?_
  rw [val_main_v16_apply]
  have el : lidx_main_v17 (ix2 i j) k = ix2 i k :=
    funext fun a => Fin.ext (by match a with | ⟨0, _⟩ => rfl | ⟨1, _⟩ => rfl)
  have er : idx_main_v16 (ridx_main_v17 (ix2 i j) k) = ix2 j k :=
    funext fun a => Fin.ext (by match a with | ⟨0, _⟩ => rfl | ⟨1, _⟩ => rfl)
  rw [el, er]

/-- The squared distance at (i, j). -/
theorem dist_eq (x0 : (⟨S16384x512, .f32⟩ : BufTy).Contents (Elt Ideal)) (x2 : (⟨S4096x512, .f32⟩ : BufTy).Contents (Elt Ideal))
    (i : Fin 16384) (j : Fin 4096) :
    val_main_v23 (F := Ideal) x0 x2 (ix2 i j) = MaskedMin.dist x0 x2 i j := by
  rw [val_main_v23_apply, val_main_v20_apply, val_main_v22_apply, val_main_v21_apply, val_main_cst_3_apply,
    sqnorm_rows, sqnorm_cols, cross_eq]
  rfl

/-! ## The mask at (i, j) -/

/-- One minus the one-hot encoding of the labels: at (i, j) it is 1 − [label i = j]. -/
theorem mask_eq (x1 : (⟨S16384, .i32⟩ : BufTy).Contents (Elt Ideal)) (i : Fin 16384) (j : Fin 4096) :
    val_main_v26 (F := Ideal) x1 (ix2 i j)
      = Ideal.ofBits .f32 0x3F800000#32
        - FloatOps.uitofp (F := Ideal) .f32 (IntOp.cmpi .eq (x1 (ix1 i)) (BitVec.ofNat 32 j.val)) := by
  rw [val_main_v26_apply, val_main_v25_apply, val_main_cst_4_apply, val_main_v24_apply, val_main_call0_v4_apply,
    val_main_call0_v2_apply, val_main_call0_v0_apply, val_main_call0_v3_apply, val_main_call0_v1_apply]
  have e : idx_main_call0_v0 (idx_main_call0_v2 (ix2 i j)) = ix1 i :=
    funext fun a => Fin.ext (by match a with | ⟨0, _⟩ => rfl)
  rw [e]; rfl

/-- The masked distance at (i, j): the product with the mask is the selection. -/
theorem masked_eq (x0 : (⟨S16384x512, .f32⟩ : BufTy).Contents (Elt Ideal)) (x1 : (⟨S16384, .i32⟩ : BufTy).Contents (Elt Ideal))
    (x2 : (⟨S4096x512, .f32⟩ : BufTy).Contents (Elt Ideal)) (i : Fin 16384) (j : Fin 4096) :
    val_main_v27 (F := Ideal) x0 x1 x2 (ix2 i j) = MaskedMin.masked x0 x1 x2 i j := by
  rw [val_main_v27_apply, dist_eq, mask_eq]
  exact MaskedMin.mul_one_sub_indicator _ _ _

/-! ## The minimum over the columns, and the sum over the rows -/

/-- Dropping the column axis of a [16384, 4096] array leaves the 16384 rows. -/
theorem reduces_cols : S16384x4096.Reduces [1] S16384 := by decide

/-- Row i with the column coordinate j put back on the reduced axis is the index (i, j). -/
theorem lift_eq (h : S16384x4096.Reduces [1] S16384) (i : Fin 16384) (j : Fin 4096) :
    h.lift (ix1 i) j = ix2 i j :=
  funext fun a => Fin.ext (by match a with | ⟨0, _⟩ => rfl | ⟨1, _⟩ => rfl)

/-- `min` on the extended reals is commutative and associative, so the minimum over the column axis at row i is the
    fold of `min`, from the initial value's one element, over that axis's coordinates in any order. -/
theorem row_fold (x0 : (⟨S16384x512, .f32⟩ : BufTy).Contents (Elt Ideal)) (x1 : (⟨S16384, .i32⟩ : BufTy).Contents (Elt Ideal))
    (x2 : (⟨S4096x512, .f32⟩ : BufTy).Contents (Elt Ideal)) (i : Fin 16384) :
    val_main_v28 (F := Ideal) x0 x1 x2 (ix1 i)
      = (Finset.univ : Finset (Fin (S16384x4096.size 1))).fold (FloatOps.minimumf (F := Ideal) (φ := .f32))
          (val_main_cst_5 (F := Ideal) (Shape.Idx.first h_S_)) (val_main_v27 (F := Ideal) x0 x1 x2 ∘ reduces_cols.lift (ix1 i)) :=
  Host.reduce_eq_fold_single (α := Ideal .f32) (s := S16384x4096) (t := S16384) (a := 1) (u := S_)
    (FloatOps.minimumf (F := Ideal) (φ := .f32)) (val_main_v27 (F := Ideal) x0 x1 x2) (val_main_cst_5 (F := Ideal))
    reducesTo_S16384x4096_S16384_d1 reduces_cols h_S_ (ix1 i)

/-- The row minimum at row i: the initial value is the +∞ word, there are 4096 columns, and column by column the
    operand of the fold is the masked distance. -/
theorem row_eq (x0 : (⟨S16384x512, .f32⟩ : BufTy).Contents (Elt Ideal)) (x1 : (⟨S16384, .i32⟩ : BufTy).Contents (Elt Ideal))
    (x2 : (⟨S4096x512, .f32⟩ : BufTy).Contents (Elt Ideal)) (i : Fin 16384) :
    val_main_v28 (F := Ideal) x0 x1 x2 (ix1 i) = MaskedMin.rowMin x0 x1 x2 i := by
  rw [row_fold]
  unfold MaskedMin.rowMin
  refine Finset.fold_congr (g := fun j : Fin 4096 => MaskedMin.masked x0 x1 x2 i j) fun j _ => ?_
  show val_main_v27 (F := Ideal) x0 x1 x2 (reduces_cols.lift (ix1 i) j) = _
  rw [lift_eq reduces_cols i j]
  exact masked_eq x0 x1 x2 i j

/-- The sum of the row minima from zero: the sum over the indices of the one-axis array of minima is the sum over the
    16384 rows, so the reference's stage is the constant function at `MaskedMin.total`. -/
theorem neg_sum_eq (x0 : (⟨S16384x512, .f32⟩ : BufTy).Contents (Elt Ideal)) (x1 : (⟨S16384, .i32⟩ : BufTy).Contents (Elt Ideal))
    (x2 : (⟨S4096x512, .f32⟩ : BufTy).Contents (Elt Ideal)) :
    Cert.ReferenceIdeal.Read.val_main_v31 (F := Ideal) x0 x1 x2 = fun _ => MaskedMin.total x0 x1 x2 := by
  funext p
  rw [val_main_v31_apply, MaskedMin.sum_idx1]
  unfold MaskedMin.total
  exact congrArg₂ (· + ·) rfl (Finset.sum_congr rfl fun i _ => row_eq x0 x1 x2 i)

end Cert.ReferenceIdeal.RefValue

end
-- ==== Proof.KernelResult.lean ====
/-
  The kernel's result, as one function of the three arguments.

  The output block never moves and is written back once, after the last grid point, when it holds the sum of all
  16384 masked row minima; so that is what the [1, 1] result array of the region holds after the run.  The host then
  reads it as a scalar, divides it by 16384, and adds it to the mean of the squared distances between each embedding
  and its own label's center, which it computes from the arguments alone, by the very operations the reference uses.
  The reference's result is that same mean plus its own sum of the row minima over 16384: so the two results are one
  function of the arguments, stated here with the reference's stages.
-/
import proofs.«136157_j9285719294140_1_alg».proof.Proof.TileSum
import proofs.«136157_j9285719294140_1_alg».proof.Proof.RefRows
import proofs.«136157_j9285719294140_1_alg».proof.Proof.Gen.ReferenceIdeal.Read
import Idealize.ShloMosaic.Lib.Pipeline.Value
import Idealize.ShloMosaic.Lib.StableHlo.Run

noncomputable section

namespace Cert.KernelIdeal.Tile

open Cert.KernelIdeal Cert.KernelIdeal.Gen
open Idealize.ShloMosaic Idealize.ShloMosaic.TcCoe Idealize.SL.Sem Idealize.ShloMosaic.StableHlo
open Idealize.ShloMosaic.Pipeline (Dat)
open Idealize.ShloMosaic.ValueIdx

variable (m : (ℓ : Loc nD τ sig) → Buf (Elt Ideal) ℓ) (ρ : Dev nD → PrngReg)

/-- The [1, 1] result array of the region: its one entry the sum of all masked row minima. -/
abbrev outArr (c : Dev nD) : Buf (Elt Ideal) ((c : Thread nD τ).loc main_v10) :=
  fun _ => MaskedMin.total (argE m c) (argL m c) (argC m c)

/-- After the last point the output block is that array. -/
theorem out_fun (c : Dev nD) : (outsAt0 m c tLast.val tLast.isLt).1 = outArr m c := by
  funext y
  obtain ⟨u, v, rfl⟩ : ∃ (u v : Fin 1), y = ix2 u v := ⟨y 0, y 1, eq_ix2 y⟩
  exact out_eq_total m c u v

/-- The one write-back, after the last point, writes it: the block at the origin of a [1, 1] array is the array. -/
theorem flushed_eq (c : Dev nD) (t : Fin cfg0.N) (hf : (cfg0.win 5).flush t = true) :
    (dats m 0 c).flushed 5 t = ((cfg0.win 5).blk t).view.read (Elt Ideal) (outArr m c) := by
  have hN : cfg0.N = 64 := N_0
  have h63 : t.val = 63 := by have := (flush0_5 t).mp hf; have := t.isLt; omega
  obtain rfl : t = tLast := Fin.ext h63
  show (cfg0.win 5).cut (grid0.coords tLast) ((dats m 0 c).after 5 tLast) = _
  rw [after0_5, out_fun]
  have hz' : (fun a => win0_5.index tLast a * main_v10.ty.shape.size a) = fun _ => 0 := funext fun a => by fin_cases a <;> decide
  exact (Memref.read_access_unit_zero (Elt Ideal) main_v10 hz' (fun a => by rw [congrFun hz' a]; simp) (outArr m c)).symm

/-- So the region's result array ends holding the sum of all masked row minima. -/
theorem final_out (c : Dev nD) : (dats m 0 c).arrAt 5 cfg0.N = outArr m c :=
  (dats m 0 c).arrAt_eq_of_cover 5 (outArr m c) (flushed_eq m c) fun i =>
    ⟨tLast, (flush0_5 tLast).mpr rfl, by
      show i ∈ ((View.whole main_v10).slice (win0_5.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_5.index tLast 0 * win0_5.size 0 ≤ (i 0 : Nat) ∧ (i 0 : Nat) < win0_5.index tLast 0 * win0_5.size 0 + win0_5.xsize (grid0.coords tLast) 0
                  rw [show win0_5.index tLast 0 * win0_5.size 0 = 0 from by decide +kernel, show win0_5.xsize (grid0.coords tLast) 0 = 1 from by decide +kernel]; omega
      | ⟨1, _⟩ => show win0_5.index tLast 1 * win0_5.size 1 ≤ (i 1 : Nat) ∧ (i 1 : Nat) < win0_5.index tLast 1 * win0_5.size 1 + win0_5.xsize (grid0.coords tLast) 1
                  rw [show win0_5.index tLast 1 * win0_5.size 1 = 0 from by decide +kernel, show win0_5.xsize (grid0.coords tLast) 1 = 1 from by decide +kernel]; omega⟩

/-! ## The host operations after the region -/

/-- What the host operations after the region find in each buffer they read: the arguments as launched, and the
    region's result array. -/
theorem found_arg0 (c : Dev nD) :
    Pipeline.withArrays (cfgs 0).spec c (V0 m c) (fun w => (dats m 0 c).arrAt w (cfgs 0).N) (Proc.devRef .tc main_arg0) = argE m c :=
  (Pipeline.withArrays_of_ne _ c (V0 m c) _ main_arg0 (by exact (by decide : ∀ w, Pipeline.arrRef spec0 w ≠ main_arg0))).trans
    (V_main_arg0 m c)
theorem found_arg1 (c : Dev nD) :
    Pipeline.withArrays (cfgs 0).spec c (V0 m c) (fun w => (dats m 0 c).arrAt w (cfgs 0).N) (Proc.devRef .tc main_arg1) = argL m c :=
  (Pipeline.withArrays_of_ne _ c (V0 m c) _ main_arg1 (by exact (by decide : ∀ w, Pipeline.arrRef spec0 w ≠ main_arg1))).trans
    (V_main_arg1 m c)
theorem found_arg2 (c : Dev nD) :
    Pipeline.withArrays (cfgs 0).spec c (V0 m c) (fun w => (dats m 0 c).arrAt w (cfgs 0).N) (Proc.devRef .tc main_arg2) = argC m c :=
  (Pipeline.withArrays_of_ne _ c (V0 m c) _ main_arg2 (by exact (by decide : ∀ w, Pipeline.arrRef spec0 w ≠ main_arg2))).trans
    (V_main_arg2 m c)
theorem found_out (c : Dev nD) :
    Pipeline.withArrays (cfgs 0).spec c (V0 m c) (fun w => (dats m 0 c).arrAt w (cfgs 0).N) (Proc.devRef .tc main_v10) = outArr m c :=
  (Pipeline.withArrays_arr spec0 launch0.win.arr_inj c _ _ 5).trans (final_out m c)

set_option maxRecDepth 8192 in
set_option maxHeartbeats 2000000 in
/-- The program's result after the host's last operations: the mean of the squared distances to the labels' centers
    plus the sum of the masked row minima over 16384 — the reference's last stage of the same arguments. -/
theorem tail_eq (c : Dev nD) :
    Pipeline.afterTail₀ cfgs (dats m) 0 (V0 m) [hostOps1] c main_v25
      = Cert.ReferenceIdeal.Read.val_main_v33 (F := Ideal) (argE m c) (argL m c) (argC m c) := by
  unfold Pipeline.afterTail₀
  show StableHlo.after hostOps1 _ (Proc.devRef .tc main_v25) = _
  after_results_simp
  rw [found_arg0 m c, found_arg1 m c, found_arg2 m c, found_out m c]
  unfold Cert.ReferenceIdeal.Read.val_main_v33 Cert.ReferenceIdeal.Read.val_main_v32
  refine congrArg₂ (addf (F := Ideal) (s := S_) (φ := .f32)) ?_
    (congrArg₂ (Host.divf (F := Ideal) (s := S_) (φ := .f32)) ?_ ?_)
  · rfl
  · rw [Cert.ReferenceIdeal.RefValue.neg_sum_eq]
    rfl
  · rfl

/-- THE RUN, READ: every weakly fair execution ends with the result at that value and the arguments unchanged. -/
theorem run : θ_run defs (onTc (τ := τ) (main (F := Ideal))) ⟨m, fun _ => 0, ρ⟩ (fun r => ∀ c : Dev nD,
      r.2.mem ((c.tc : Thread nD τ).loc main_v25)
        = Cert.ReferenceIdeal.Read.val_main_v33 (F := Ideal) (argE m c) (argL m c) (argC m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v25 (Pipeline.mem_restRefs_of main_v25 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Tile

end
-- ==== Proof.lean ====
/-
  The kernel and its reference compute one function of the embeddings e, the labels l and the centers c:

      mean_i ‖e_i − c_{l_i}‖²  +  (1/16384) · Σ_i min_j M(i, j),

  where M(i, j) is the squared distance ‖e_i‖² + ‖c_j‖² − 2⟨e_i, c_j⟩ with row i's own label column set to zero.

  The first summand both programs compute on the host by the same operations.  The second differs in two ways.  The
  kernel sets the label's column to zero by SELECTION, the reference by MULTIPLYING the distance by one minus the
  label's indicator: on the extended reals d·0 = 0 and d·1 = d for every d, so the two agree entry by entry, whatever
  the inputs.  And the kernel adds the row minima tile by tile — 64 tiles of 256 rows, a running sum carried across
  the grid and written out once after the last tile — where the reference adds all 16384 at once: addition of
  extended reals is associative and commutative, so the two sums are one.  The narrower float format the kernel
  multiplies in changes nothing at the ideal values, and its matrix product into a zero accumulator is the
  reference's contraction.  Neither law needs the inputs to be finite, and the precondition is never opened.

  The three frames are the generated ones (the reference's is its generated run with the result dropped); the
  kernel's idealization rewrote no operation, so there is nothing to preserve.
-/
import proofs.«136157_j9285719294140_1_alg».proof.Defs
import proofs.«136157_j9285719294140_1_alg».proof.Proof.Gen.Kernel
import proofs.«136157_j9285719294140_1_alg».proof.Proof.Gen.Kernel.Frame
import proofs.«136157_j9285719294140_1_alg».proof.Proof.Gen.KernelIdeal
import proofs.«136157_j9285719294140_1_alg».proof.Proof.Gen.KernelIdeal.Frame
import proofs.«136157_j9285719294140_1_alg».proof.Proof.Gen.ReferenceIdeal
import proofs.«136157_j9285719294140_1_alg».proof.Proof.Gen.ReferenceIdeal.Run
import proofs.«136157_j9285719294140_1_alg».proof.Proof.Gen.ReferenceIdeal.Read
import proofs.«136157_j9285719294140_1_alg».proof.Proof.Gen.Pre_finite_inputs
import proofs.«136157_j9285719294140_1_alg».proof.Proof.KernelResult
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the reference's last stage of the arguments: the kernel's by the running sum over the
    grid and the selection law, the reference's by its own run, at arguments that agree. -/
theorem algebraic : Cert.algebraic_KernelIdeal_ReferenceIdeal := by
  intro m ρ m' ρ' _ hagree
  refine ⟨fun c => Cert.ReferenceIdeal.Read.val_main_v33 (F := Ideal) (Cert.KernelIdeal.Tile.argE m c)
    (Cert.KernelIdeal.Tile.argL m c) (Cert.KernelIdeal.Tile.argC m c), Cert.KernelIdeal.Tile.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v33_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
